-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000 : Shape := ⟨1, ![640000]⟩
abbrev S640000x128 : Shape := ⟨2, ![640000, 128]⟩
abbrev S384x128 : Shape := ⟨2, ![384, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S640000 .f32) (main_arg3 : FVec F S640000x128 .f32) (main_arg4 : FVec F S384x128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000x128 .f32 := Host.absf main_arg3
  let main_cst_2 : FVec F S_ .f32 := constant S_ .f32 0x7F800000#32
  let main_v10 : FVec F S640000x128 .f32 := broadcastInDim S640000x128 ![] bcast_S_S640000x128 main_cst_2
  let main_v11 : IVec S640000x128 1 := cmpf .olt main_v9 main_v10
  let main_c_3 : IVec S_ 1 := constantI S_ 1 1#1
  let main_v12 : IVec S_ 1 := (fun x v => Host.reduce IntOp.andi x v reducesTo_S640000x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S640000 : Shape := ⟨1, ![640000]⟩
abbrev S640000x128 : Shape := ⟨2, ![640000, 128]⟩
abbrev S384x128 : Shape := ⟨2, ![384, 128]⟩
abbrev S128x128 : Shape := ⟨2, ![128, 128]⟩
abbrev S1x640000 : Shape := ⟨2, ![1, 640000]⟩
abbrev S5000x128 : Shape := ⟨2, ![5000, 128]⟩
abbrev S_ : Shape := ⟨0, ![]⟩
abbrev S640000x1 : Shape := ⟨2, ![640000, 1]⟩
abbrev S5000x1 : Shape := ⟨2, ![5000, 1]⟩

abbrev nBuf : Space → Nat
  | .hbm => 42
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000, .f32⟩
  | .hbm, ⟨3, _⟩ => ⟨S640000x128, .f32⟩
  | .hbm, ⟨4, _⟩ => ⟨S384x128, .f32⟩
  | .hbm, ⟨5, _⟩ => ⟨S128x128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S640000x128, .f32⟩
  | .hbm, ⟨35, _⟩ => ⟨S640000x1, .f32⟩
  | .hbm, ⟨36, _⟩ => ⟨S640000x128, .f32⟩
  | .hbm, ⟨37, _⟩ => ⟨S_, .f32⟩
  | .hbm, ⟨38, _⟩ => ⟨S100000x128, .f32⟩
  | .hbm, ⟨39, _⟩ => ⟨S640000x1, .i32⟩
  | .hbm, ⟨40, _⟩ => ⟨S100000x128, .f32⟩
  | .hbm, ⟨41, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S384x128_S128x128_0_0 : S384x128.Slices ![0, 0] S128x128
  slices_S384x128_S128x128_128_0 : S384x128.Slices ![128, 0] S128x128
  slices_S384x128_S128x128_256_0 : S384x128.Slices ![256, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S640000 : S_.BroadcastsInDim S640000 (![] : Fin 0 → Fin S640000.rank)
  bcast_S640000_S640000x1_0 : S640000.BroadcastsInDim S640000x1 (![0] : Fin 1 → Fin S640000x1.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S640000x128.size a
  hwx1_0 : ∀ i : grid1.Coords, EltTy.bits .f32 = 32 ∨ (Rect.block (s := S640000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S640000x128.size a
  hwx1_2 : ∀ i : grid1.Coords, EltTy.bits .f32 = 32 ∨ (Rect.block (s := S640000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S640000x1.size a
  hwx1_3 : ∀ i : grid1.Coords, EltTy.bits .f32 = 32 ∨ (Rect.block (s := S640000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S640000x128.size a
  hwx1_4 : ∀ i : grid1.Coords, EltTy.bits .f32 = 32 ∨ (Rect.block (s := S640000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg3) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000 : Shape := ⟨1, ![640000]⟩
abbrev S640000x128 : Shape := ⟨2, ![640000, 128]⟩
abbrev S384x128 : Shape := ⟨2, ![384, 128]⟩
abbrev S128x128 : Shape := ⟨2, ![128, 128]⟩
abbrev S1x640000 : Shape := ⟨2, ![1, 640000]⟩
abbrev S_ : Shape := ⟨0, ![]⟩
abbrev S640000x1 : Shape := ⟨2, ![640000, 1]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000, .f32⟩
  | .hbm, ⟨3, _⟩ => ⟨S640000x128, .f32⟩
  | .hbm, ⟨4, _⟩ => ⟨S384x128, .f32⟩
  | .hbm, ⟨5, _⟩ => ⟨S128x128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S100000x128, .f32⟩
  | .hbm, ⟨14, _⟩ => ⟨S100000x128, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S640000x1, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S100000x128, .f32⟩
  | .hbm, ⟨41, _⟩ => ⟨S640000x1, .i32⟩
  | .hbm, ⟨42, _⟩ => ⟨S100000x128, .f32⟩
  | .hbm, ⟨43, _⟩ => ⟨S100000x128, .f32⟩
  | .hbm, ⟨44, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S384x128_S128x128_0_0 : S384x128.Slices ![0, 0] S128x128
  slices_S384x128_S128x128_128_0 : S384x128.Slices ![128, 0] S128x128
  slices_S384x128_S128x128_256_0 : S384x128.Slices ![256, 0] S128x128
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  dot_S640000x128_S128x128_S640000x128_1_0_0_1_n_n_wf : DotDims.WF S640000x128 S128x128 S640000x128 [1] [0] [0] [1] [] []
  scatter_S100000x128_S640000x1_S640000x128_1_0_0_1_wf : ScatterDims.WF S100000x128 S640000x1 S640000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.ResultRun.lean ====
/-
  The whole program's run, with its result named.

  @main is five segments: the slices of the index and weight arrays, the node-product region, the gathers and their
  sum, the edge-message region, and the scatter-add with the final sum. Every weakly fair execution runs them in order and
  terminates; the contents of every buffer at each segment boundary are a fold from the launch memory (a host stretch
  applies its operations, a region leaves in its arrays what its write-backs leave and every other buffer as entered).
  Read at the end of the fold, the result buffer holds the fold's last contents and each argument its launch contents.
-/
import proofs.«160477_j4363686772851_2_alg».proof.Proof.Gen.KernelIdeal.Frame

set_option maxRecDepth 16384

noncomputable section

namespace Cert.KernelIdeal.ResultRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last contents of the
    fold through the segments and every argument array as launched. -/
theorem run : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.ResultRun

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.MessageSpec.lean ====
/-
  The two array functions the message-passing layer is made of, on the extended reals, and the one law that joins the
  kernel's spelling to the reference's.

  `rowsByCols X W` is the plain product of an `[a, k]` array by a `[k, b]` array: entry `(p, q)` is the sum over `c` of
  `X[p,c] · W[c,q]`. `edgeMessage A W H E` is one edge's message: the gathered node terms `H[e,q]` plus the edge
  attributes' product `(A · W)[e,q]`, scaled by the edge's weight `E[e,0]` (the weights kept as a column). The kernel
  multiplies the sum by the weight on the right, the reference the weight by the sum on the left: multiplication of
  extended reals is commutative, infinite values included, so no input needs to be finite.
-/
import Idealize.ShloMosaic.PureOps.Ideal
import Idealize.ShloMosaic.Lib.ValueIdx

noncomputable section

open scoped BigOperators

namespace Cert.MessageSpec

open Idealize.ShloMosaic Idealize.ShloMosaic.ValueIdx

variable {a k b : Nat}

/-- The plain product of `X : [a, k]` by `W : [k, b]`, entry by entry. -/
def rowsByCols (X : (⟨2, ![a, k]⟩ : Shape).Idx → EReal) (W : (⟨2, ![k, b]⟩ : Shape).Idx → EReal) :
    (⟨2, ![a, b]⟩ : Shape).Idx → EReal :=
  fun i => ∑ c : Fin k, X (ix2 (i 0) c) * W (ix2 c (i 1))

theorem rowsByCols_apply (X : (⟨2, ![a, k]⟩ : Shape).Idx → EReal) (W : (⟨2, ![k, b]⟩ : Shape).Idx → EReal)
    (p : Fin a) (q : Fin b) : rowsByCols X W (ix2 p q) = ∑ c : Fin k, X (ix2 p c) * W (ix2 c q) := rfl

/-- One edge's message: `(H[e,q] + (A · W)[e,q]) · E[e,0]`. -/
def edgeMessage (A : (⟨2, ![a, k]⟩ : Shape).Idx → EReal) (W : (⟨2, ![k, b]⟩ : Shape).Idx → EReal)
    (H : (⟨2, ![a, b]⟩ : Shape).Idx → EReal) (E : (⟨2, ![a, 1]⟩ : Shape).Idx → EReal) :
    (⟨2, ![a, b]⟩ : Shape).Idx → EReal :=
  fun i => (H (ix2 (i 0) (i 1)) + rowsByCols A W (ix2 (i 0) (i 1))) * E (ix2 (i 0) (0 : Fin 1))

theorem edgeMessage_apply (A : (⟨2, ![a, k]⟩ : Shape).Idx → EReal) (W : (⟨2, ![k, b]⟩ : Shape).Idx → EReal)
    (H : (⟨2, ![a, b]⟩ : Shape).Idx → EReal) (E : (⟨2, ![a, 1]⟩ : Shape).Idx → EReal) (p : Fin a) (q : Fin b) :
    edgeMessage A W H E (ix2 p q) = (H (ix2 p q) + ∑ c : Fin k, A (ix2 p c) * W (ix2 c q)) * E (ix2 p (0 : Fin 1)) := rfl

/-- The reference's spelling, weight first, is the same message. -/
theorem weight_first (A : (⟨2, ![a, k]⟩ : Shape).Idx → EReal) (W : (⟨2, ![k, b]⟩ : Shape).Idx → EReal)
    (H : (⟨2, ![a, b]⟩ : Shape).Idx → EReal) (E : (⟨2, ![a, 1]⟩ : Shape).Idx → EReal) (p : Fin a) (q : Fin b) :
    E (ix2 p (0 : Fin 1)) * (H (ix2 p q) + ∑ c : Fin k, A (ix2 p c) * W (ix2 c q)) = edgeMessage A W H E (ix2 p q) :=
  mul_comm _ _

end Cert.MessageSpec

end
-- ==== Proof.NodeProducts.lean ====
/-
  The first region: three node products from one tile of the node array.

  Grid point `t` of 20 takes rows `5000·t … 5000·t + 4999` of the node array `X` and the whole of three `128 × 128` weight
  arrays, and writes the tile's plain product with each weight into the same rows of that weight's output array. Entry
  `(r, q)` of an output depends only on row `r` of `X` and column `q` of its weight, and every row lies in exactly the tile
  of point `r / 5000`: so each output array ends as the plain product of the WHOLE arrays, `X · W`, whatever contents the
  region is entered with.
-/
import proofs.«160477_j4363686772851_2_alg».proof.Proof.Gen.KernelIdeal.Frame
import proofs.«160477_j4363686772851_2_alg».proof.Proof.LibPlainMatmul
import proofs.«160477_j4363686772851_2_alg».proof.Proof.MessageSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.NodeProducts

open Idealize.ShloMosaic Idealize.ShloMosaic.TcCoe Idealize.SL.Sem Idealize.ShloMosaic.ValueIdx
open Cert.KernelIdeal Cert.KernelIdeal.Gen Cert.MessageSpec
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- A tile's product with a weight array at entry `(p, q)`: row `p` of the tile against column `q` of the weight (the
    changes of float format and the cast of the weight to its own shape are the identity on extended reals). -/
theorem tile_product (x0 : Vec Ideal S5000x128 .f32) (w : Vec Ideal S128x128 .f32) (p : Fin 5000) (q : Fin 128) :
    k0_pay2 x0 w (ix2 p q) = ∑ c : Fin 128, x0 (ix2 p c) * w (ix2 c q) := by
  unfold k0_pay2 k0_pay1
  refine (PlainMatmul.matmul_zero_apply (m := 5000) (k := 128) (n := 128) none _ _ p q).trans ?_
  refine Finset.sum_congr rfl fun c _ => ?_
  exact congrArg (x0 (ix2 p c) * ·) (congrFun (shapeCast_self w shapeCasts_S128x128_S128x128) (ix2 c q))

/-- Where each window's block sits at point `t`: the tile windows on row block `t`, the weight windows on the one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The second weight's tile product: the same term. -/
theorem tile_product' (x0 : Vec Ideal S5000x128 .f32) (w : Vec Ideal S128x128 .f32) (p : Fin 5000) (q : Fin 128) :
    k0_pay3 x0 w (ix2 p q) = ∑ c : Fin 128, x0 (ix2 p c) * w (ix2 c q) := tile_product x0 w p q

/-- The self weight's tile product (its weight block is not cast). -/
theorem tile_product'' (x0 : Vec Ideal S5000x128 .f32) (w : Vec Ideal S128x128 .f32) (p : Fin 5000) (q : Fin 128) :
    k0_pay4 x0 w (ix2 p q) = ∑ c : Fin 128, x0 (ix2 p c) * w (ix2 c q) := by
  unfold k0_pay4 k0_pay1
  exact PlainMatmul.matmul_zero_apply (m := 5000) (k := 128) (n := 128) none _ _ p q

/-! ## Output window 4: the product with the weight of window 1 -/

/-- What point `t` writes back through window 4 is block `t` of the whole product. -/
theorem flushed4_eq (c : Dev nD) (t : Fin cfg0.N) :
    (dat0 V c).flushed 4 t = ((cfg0.win 4).blk t).view.read (Elt Ideal)
      (rowsByCols (a := 100000) (k := 128) (b := 128) (V c main_arg0) (V c main_v4)) := by
  show (cfg0.win 4).cut (grid0.coords t) ((dat0 V c).after 4 t) = _
  rw [after0_4]
  unfold out0_4
  rw [View.canon_unit_zero offsets_zero]
  simp only [View.ld_unit_zero (S := S5000x128) offsets_zero, View.ld_unit_zero (S := S128x128) offsets_zero]
  obtain ⟨e00, e01, e10, e11, e20, e21, e30, e31, e40, e41, e50, e51, e60, e61⟩ := block_indices t
  funext j
  obtain ⟨p, q, rfl⟩ : ∃ (p : Fin 5000) (q : Fin 128), j = ix2 p q := ⟨j 0, j 1, eq_ix2 j⟩
  refine (tile_product (iblk0 V c 0 t) (iblk0 V c 1 t) p q).trans ?_
  let X : S100000x128.Idx → EReal := V c main_arg0
  let Wt : S128x128.Idx → EReal := V c main_v4
  show (∑ k : Fin 128, X (((cfg0.win 0).blk t).view.emb (ix2 p k)) * Wt (((cfg0.win 1).blk t).view.emb (ix2 k q)))
      = ∑ k : Fin 128, X (ix2 ((((cfg0.win 4).blk t).view.emb (ix2 p q)) 0) k)
          * Wt (ix2 k ((((cfg0.win 4).blk t).view.emb (ix2 p q)) 1))
  refine Finset.sum_congr rfl fun k _ => ?_
  have hx : ((cfg0.win 0).blk t).view.emb (ix2 p k) = ix2 ((((cfg0.win 4).blk t).view.emb (ix2 p q)) 0) k := by
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  have hw : ((cfg0.win 1).blk t).view.emb (ix2 k q) = ix2 k ((((cfg0.win 4).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_4.index t (1 : Fin 2) * 128 + 1 * q.val; omega
  rw [hx, hw]
  rfl

/-- An index of the output array is in point `t`'s block iff each coordinate is in the block's range on its axis. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole (Pipeline.arrRef spec0 4)).slice (win0_4.rect t)).set ↔ _
  rw [View.set_slice_whole, Rect.mem_set_unit]
  exact Iff.rfl

/-- Every entry of the output lies in the block of the point that holds its row: `(i 0) / 5000`. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  obtain ⟨e00, e01, e10, e11, e20, e21, e30, e31, e40, e41, e50, e51, e60, e61⟩ := block_indices t
  have ht : t.val = (i 0).val / 5000 := rfl
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- **The array window 4 leaves**: the plain product of the node array as entered with the weight array as entered. -/
theorem product4 (c : Dev nD) :
    (dat0 V c).arrAt 4 cfg0.N = rowsByCols (a := 100000) (k := 128) (b := 128) (V c main_arg0) (V c main_v4) :=
  (dat0 V c).arrAt_eq_of_cover 4 _ (fun t _ => flushed4_eq V c t) (cover4)

/-! ## Output window 5: the product with the weight of window 2 -/

/-- What point `t` writes back through window 5 is block `t` of the whole product. -/
theorem flushed5_eq (c : Dev nD) (t : Fin cfg0.N) :
    (dat0 V c).flushed 5 t = ((cfg0.win 5).blk t).view.read (Elt Ideal)
      (rowsByCols (a := 100000) (k := 128) (b := 128) (V c main_arg0) (V c main_v5)) := by
  show (cfg0.win 5).cut (grid0.coords t) ((dat0 V c).after 5 t) = _
  rw [after0_5]
  unfold out0_5
  rw [View.canon_unit_zero offsets_zero]
  simp only [View.ld_unit_zero (S := S5000x128) offsets_zero, View.ld_unit_zero (S := S128x128) offsets_zero]
  obtain ⟨e00, e01, e10, e11, e20, e21, e30, e31, e40, e41, e50, e51, e60, e61⟩ := block_indices t
  funext j
  obtain ⟨p, q, rfl⟩ : ∃ (p : Fin 5000) (q : Fin 128), j = ix2 p q := ⟨j 0, j 1, eq_ix2 j⟩
  refine (tile_product' (iblk0 V c 0 t) (iblk0 V c 2 t) p q).trans ?_
  let X : S100000x128.Idx → EReal := V c main_arg0
  let Wt : S128x128.Idx → EReal := V c main_v5
  show (∑ k : Fin 128, X (((cfg0.win 0).blk t).view.emb (ix2 p k)) * Wt (((cfg0.win 2).blk t).view.emb (ix2 k q)))
      = ∑ k : Fin 128, X (ix2 ((((cfg0.win 5).blk t).view.emb (ix2 p q)) 0) k)
          * Wt (ix2 k ((((cfg0.win 5).blk t).view.emb (ix2 p q)) 1))
  refine Finset.sum_congr rfl fun k _ => ?_
  have hx : ((cfg0.win 0).blk t).view.emb (ix2 p k) = ix2 ((((cfg0.win 5).blk t).view.emb (ix2 p q)) 0) k := by
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have hw : ((cfg0.win 2).blk t).view.emb (ix2 k q) = ix2 k ((((cfg0.win 5).blk t).view.emb (ix2 p q)) 1) := by
    funext a; apply Fin.ext
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  rw [hx, hw]
  rfl

/-- An index of the output array is in point `t`'s block iff each coordinate is in the block's range on its axis. -/
theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- Every entry of the output lies in the block of the point that holds its row: `(i 0) / 5000`. -/
theorem cover5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  obtain ⟨e00, e01, e10, e11, e20, e21, e30, e31, e40, e41, e50, e51, e60, e61⟩ := block_indices t
  have ht : t.val = (i 0).val / 5000 := rfl
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- **The array window 5 leaves**: the plain product of the node array as entered with the weight array as entered. -/
theorem product5 (c : Dev nD) :
    (dat0 V c).arrAt 5 cfg0.N = rowsByCols (a := 100000) (k := 128) (b := 128) (V c main_arg0) (V c main_v5) :=
  (dat0 V c).arrAt_eq_of_cover 5 _ (fun t _ => flushed5_eq V c t) (cover5)

/-! ## Output window 6: the product with the weight of window 3 -/

/-- What point `t` writes back through window 6 is block `t` of the whole product. -/
theorem flushed6_eq (c : Dev nD) (t : Fin cfg0.N) :
    (dat0 V c).flushed 6 t = ((cfg0.win 6).blk t).view.read (Elt Ideal)
      (rowsByCols (a := 100000) (k := 128) (b := 128) (V c main_arg0) (V c main_arg5)) := by
  show (cfg0.win 6).cut (grid0.coords t) ((dat0 V c).after 6 t) = _
  rw [after0_6]
  unfold out0_6
  rw [View.canon_unit_zero offsets_zero]
  simp only [View.ld_unit_zero (S := S5000x128) offsets_zero, View.ld_unit_zero (S := S128x128) offsets_zero]
  obtain ⟨e00, e01, e10, e11, e20, e21, e30, e31, e40, e41, e50, e51, e60, e61⟩ := block_indices t
  funext j
  obtain ⟨p, q, rfl⟩ : ∃ (p : Fin 5000) (q : Fin 128), j = ix2 p q := ⟨j 0, j 1, eq_ix2 j⟩
  refine (tile_product'' (iblk0 V c 0 t) (iblk0 V c 3 t) p q).trans ?_
  let X : S100000x128.Idx → EReal := V c main_arg0
  let Wt : S128x128.Idx → EReal := V c main_arg5
  show (∑ k : Fin 128, X (((cfg0.win 0).blk t).view.emb (ix2 p k)) * Wt (((cfg0.win 3).blk t).view.emb (ix2 k q)))
      = ∑ k : Fin 128, X (ix2 ((((cfg0.win 6).blk t).view.emb (ix2 p q)) 0) k)
          * Wt (ix2 k ((((cfg0.win 6).blk t).view.emb (ix2 p q)) 1))
  refine Finset.sum_congr rfl fun k _ => ?_
  have hx : ((cfg0.win 0).blk t).view.emb (ix2 p k) = ix2 ((((cfg0.win 6).blk t).view.emb (ix2 p q)) 0) k := by
    funext a; apply Fin.ext
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  have hw : ((cfg0.win 3).blk t).view.emb (ix2 k q) = ix2 k ((((cfg0.win 6).blk t).view.emb (ix2 p q)) 1) := by
    funext a; apply Fin.ext
    match a with
    | ⟨0, _⟩ => show win0_3.index t (0 : Fin 2) * 128 + 1 * k.val = k.val; omega
    | ⟨1, _⟩ => show win0_3.index t (1 : Fin 2) * 128 + 1 * q.val = win0_6.index t (1 : Fin 2) * 128 + 1 * q.val; omega
  rw [hx, hw]
  rfl

/-- An index of the output array is in point `t`'s block iff each coordinate is in the block's range on its axis. -/
theorem mem_blk6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- Every entry of the output lies in the block of the point that holds its row: `(i 0) / 5000`. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  obtain ⟨e00, e01, e10, e11, e20, e21, e30, e31, e40, e41, e50, e51, e60, e61⟩ := block_indices t
  have ht : t.val = (i 0).val / 5000 := rfl
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- **The array window 6 leaves**: the plain product of the node array as entered with the weight array as entered. -/
theorem product6 (c : Dev nD) :
    (dat0 V c).arrAt 6 cfg0.N = rowsByCols (a := 100000) (k := 128) (b := 128) (V c main_arg0) (V c main_arg5) :=
  (dat0 V c).arrAt_eq_of_cover 6 _ (fun t _ => flushed6_eq V c t) (cover6)

end Cert.KernelIdeal.NodeProducts

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.EdgeMessages.lean ====
/-
  The second region: the edge messages.

  Grid point `t` of 128 takes rows `5000·t … 5000·t + 4999` of the edge attributes `A`, of the gathered node terms `H` and of
  the weight column `E`, and the whole `128 × 128` edge weight array `W`; it writes into the same rows of the output the
  tile's product with `W` added to the gathered terms and scaled, row by row, by the edge's weight. Entry `(e, q)` of the
  output depends only on row `e` of `A`, `H`, `E` and column `q` of `W`, and every row lies in exactly the tile of point
  `e / 5000`: so the output array ends as `(H + A · W) · E` of the WHOLE arrays, whatever contents the region is entered
  with.
-/
import proofs.«160477_j4363686772851_2_alg».proof.Proof.Gen.KernelIdeal.Frame
import proofs.«160477_j4363686772851_2_alg».proof.Proof.LibPlainMatmul
import proofs.«160477_j4363686772851_2_alg».proof.Proof.LibColumnLayout
import proofs.«160477_j4363686772851_2_alg».proof.Proof.MessageSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.EdgeMessages

open Idealize.ShloMosaic Idealize.ShloMosaic.TcCoe Idealize.SL.Sem Idealize.ShloMosaic.ValueIdx
open Cert.KernelIdeal Cert.KernelIdeal.Gen Cert.MessageSpec
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- A tile's product with the weight array at entry `(p, q)`: row `p` of the tile against column `q` of the weight. -/
theorem tile_product (x0 : Vec Ideal S5000x128 .f32) (w : Vec Ideal S128x128 .f32) (p : Fin 5000) (q : Fin 128) :
    k0_pay2 x0 w (ix2 p q) = ∑ c : Fin 128, x0 (ix2 p c) * w (ix2 c q) := by
  unfold k0_pay2 k0_pay1
  refine (PlainMatmul.matmul_zero_apply (m := 5000) (k := 128) (n := 128) none _ _ p q).trans ?_
  refine Finset.sum_congr rfl fun c _ => ?_
  exact congrArg (x0 (ix2 p c) * ·) (congrFun (shapeCast_self w shapeCasts_S128x128_S128x128) (ix2 c q))

/-- A tile's message at entry `(p, q)`: the gathered term plus row `p` of the attributes against column `q` of the
    weight array, times the weight in row `p` of the column (the changes of float format and the casts of an array to
    its own shape are the identity on extended reals; the column is broadcast along the row). -/
theorem tile_message (x0 : Vec Ideal S5000x128 .f32) (w : Vec Ideal S128x128 .f32) (hs : Vec Ideal S5000x128 .f32)
    (ew : Vec Ideal S5000x1 .f32) (p : Fin 5000) (q : Fin 128) :
    k1_pay1 x0 w hs ew (ix2 p q)
      = (hs (ix2 p q) + ∑ c : Fin 128, x0 (ix2 p c) * w (ix2 c q)) * ew (ix2 p (0 : Fin 1)) := by
  unfold k1_pay1
  exact congrArg₂ (· * ·)
    (congrArg₂ (· + ·) (congrFun (shapeCast_self hs shapeCasts_S5000x128_S5000x128) (ix2 p q)) (tile_product x0 w p q))
    ((ColumnLayout.broadcastTo_a1_ab_apply (a := 5000) (b := 128) (shapeCast S5000x1 ew shapeCasts_S5000x1_S5000x1)
        broadcasts_S5000x1_S5000x128 p q).trans
      (congrFun (shapeCast_self ew shapeCasts_S5000x1_S5000x1) (ix2 p (0 : Fin 1))))

/-- Where each window's block sits at point `t`: the row-tiled windows on row block `t`, the weight window on its one block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the whole message array. -/
theorem flushed_eq (c : Dev nD) (t : Fin cfg1.N) :
    (dat1 V c).flushed 4 t = ((cfg1.win 4).blk t).view.read (Elt Ideal)
      (edgeMessage (a := 640000) (k := 128) (b := 128) (V c main_arg3) (V c main_v6) (V c main_v22) (V c main_v23)) := by
  show (cfg1.win 4).cut (grid1.coords t) ((dat1 V c).after 4 t) = _
  rw [after1_4]
  unfold out1_4
  rw [View.canon_unit_zero offsets_zero]
  simp only [View.ld_unit_zero (S := S5000x128) offsets_zero, View.ld_unit_zero (S := S128x128) offsets_zero,
    View.ld_unit_zero (S := S5000x1) offsets_zero]
  obtain ⟨e00, e01, e10, e11, e20, e21, e30, e31, e40, e41⟩ := block_indices t
  funext j
  obtain ⟨p, q, rfl⟩ : ∃ (p : Fin 5000) (q : Fin 128), j = ix2 p q := ⟨j 0, j 1, eq_ix2 j⟩
  refine (tile_message (iblk1 V c 0 t) (iblk1 V c 1 t) (iblk1 V c 2 t) (iblk1 V c 3 t) p q).trans ?_
  have hH : ((cfg1.win 2).blk t).view.emb (ix2 p q)
      = ix2 ((((cfg1.win 4).blk t).view.emb (ix2 p q)) 0) ((((cfg1.win 4).blk t).view.emb (ix2 p q)) 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 128 + 1 * q.val = win1_4.index t (1 : Fin 2) * 128 + 1 * q.val; omega
  have hE : ((cfg1.win 3).blk t).view.emb (ix2 p (0 : Fin 1))
      = ix2 ((((cfg1.win 4).blk t).view.emb (ix2 p q)) 0) (0 : Fin 1) := by
    funext a; apply Fin.ext
    match a with
    | ⟨0, _⟩ => show win1_3.index t (0 : Fin 2) * 5000 + 1 * p.val = win1_4.index t (0 : Fin 2) * 5000 + 1 * p.val; omega
    | ⟨1, _⟩ => show win1_3.index t (1 : Fin 2) * 1 + 1 * 0 = 0; omega
  have hA : ∀ k : Fin 128, ((cfg1.win 0).blk t).view.emb (ix2 p k)
      = ix2 ((((cfg1.win 4).blk t).view.emb (ix2 p q)) 0) k := fun k => by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  have hW : ∀ k : Fin 128, ((cfg1.win 1).blk t).view.emb (ix2 k q)
      = ix2 k ((((cfg1.win 4).blk t).view.emb (ix2 p q)) 1) := fun k => by
    funext a; apply Fin.ext
    match a with
    | ⟨0, _⟩ => show win1_1.index t (0 : Fin 2) * 128 + 1 * k.val = k.val; omega
    | ⟨1, _⟩ => show win1_1.index t (1 : Fin 2) * 128 + 1 * q.val = win1_4.index t (1 : Fin 2) * 128 + 1 * q.val; omega
  let A : S640000x128.Idx → EReal := V c main_arg3
  let Wt : S128x128.Idx → EReal := V c main_v6
  let H : S640000x128.Idx → EReal := V c main_v22
  let E : S640000x1.Idx → EReal := V c main_v23
  show (H (((cfg1.win 2).blk t).view.emb (ix2 p q))
        + ∑ k : Fin 128, A (((cfg1.win 0).blk t).view.emb (ix2 p k)) * Wt (((cfg1.win 1).blk t).view.emb (ix2 k q)))
      * E (((cfg1.win 3).blk t).view.emb (ix2 p (0 : Fin 1)))
    = (H (ix2 ((((cfg1.win 4).blk t).view.emb (ix2 p q)) 0) ((((cfg1.win 4).blk t).view.emb (ix2 p q)) 1))
        + ∑ k : Fin 128, A (ix2 ((((cfg1.win 4).blk t).view.emb (ix2 p q)) 0) k) * Wt (ix2 k ((((cfg1.win 4).blk t).view.emb (ix2 p q)) 1)))
      * E (ix2 ((((cfg1.win 4).blk t).view.emb (ix2 p q)) 0) (0 : Fin 1))
  rw [hH, hE]
  simp only [hA, hW]
  rfl

/-- An index of the output array is in point `t`'s block iff each coordinate is in the block's range on its axis. -/
theorem mem_blk (t : Fin cfg1.N) (i : S640000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole (Pipeline.arrRef spec1 4)).slice (win1_4.rect t)).set ↔ _
  rw [View.set_slice_whole, Rect.mem_set_unit]
  exact Iff.rfl

/-- Every entry of the output lies in the block of the point that holds its row: `(i 0) / 5000`. -/
theorem cover (i : S640000x128.Idx) :
    ∃ t : Fin cfg1.N, (cfg1.win 4).flush t = true ∧ i ∈ ((cfg1.win 4).blk t).view.set := by
  have hi0 : (i 0).val < 640000 := (i 0).isLt
  have hi1 : (i 1).val < 128 := (i 1).isLt
  have hN : grid1.N = 128 := N_1
  let t : Fin cfg1.N := ⟨(i 0).val / 5000, by show (i 0).val / 5000 < grid1.N; omega⟩
  obtain ⟨e00, e01, e10, e11, e20, e21, e30, e31, e40, e41⟩ := block_indices t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- **The array the region leaves**: the edge messages of the arrays as entered. -/
theorem messages (c : Dev nD) :
    (dat1 V c).arrAt 4 cfg1.N
      = edgeMessage (a := 640000) (k := 128) (b := 128) (V c main_arg3) (V c main_v6) (V c main_v22) (V c main_v23) :=
  (dat1 V c).arrAt_eq_of_cover 4 _ (fun t _ => flushed_eq V c t) cover

end Cert.KernelIdeal.EdgeMessages

end
-- ==== Proof.KernelValue.lean ====
/-
  The contents of the buffers at each boundary of the program's five segments, as functions of the argument arrays, and so
  the result.

  The first stretch slices the index array into its source and target rows and the message weight array into its three
  `128 × 128` blocks. The first region leaves the three node products (of the node array with the first two blocks and
  with the self weight array). The second stretch wraps negative indices, gathers rows of the first two products at the
  target and source indices and adds them, and keeps the edge weights as a column. The second region leaves the edge
  messages. The last stretch scatter-adds the messages at the target indices into zeros and adds the third product.
  Each boundary's contents follow from the previous one's: a host stretch applies its operations, a region changes only
  its own arrays.
-/
import proofs.«160477_j4363686772851_2_alg».proof.Proof.Gen.KernelIdeal.Frame
import proofs.«160477_j4363686772851_2_alg».proof.Proof.NodeProducts
import proofs.«160477_j4363686772851_2_alg».proof.Proof.EdgeMessages
import proofs.«160477_j4363686772851_2_alg».proof.Proof.MessageSpec
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.MessageSpec

/-- The layer's result as one function of the six argument arrays: the edge messages scatter-added at the target
    indices into zeros, plus the self product. -/
def value (x0 : FVec Ideal S100000x128 .f32) (x1 : IVec S2x640000 32) (x2 : FVec Ideal S640000 .f32) (x3 : FVec Ideal S640000x128 .f32) (x4 : FVec Ideal S384x128 .f32) (x5 : FVec Ideal S128x128 .f32) : FVec Ideal S100000x128 .f32 :=
  addf (F := Ideal) (s := S100000x128) (φ := .f32) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 (shapeCast _ (extractStridedSlice S1x640000 ![1, 0] x1 slices_S2x640000_S1x640000_1_0) shapeCasts_S1x640000_S640000)) (edgeMessage (a := 640000) (k := 128) (b := 128) x3 (extractStridedSlice S128x128 ![256, 0] x4 slices_S384x128_S128x128_256_0) (addf (F := Ideal) (s := S640000x128) (φ := .f32) (Host.gather gather_S100000x128_S640000x1_S640000x128_1_0_n_n_0_1_1128 (rowsByCols (a := 100000) (k := 128) (b := 128) x0 (extractStridedSlice S128x128 ![0, 0] x4 slices_S384x128_S128x128_0_0)) (broadcastInDim S640000x1 ![0] bcast_S640000_S640000x1_0 (select (cmpi .slt (shapeCast _ (extractStridedSlice S1x640000 ![1, 0] x1 slices_S2x640000_S1x640000_1_0) shapeCasts_S1x640000_S640000) (broadcastInDim S640000 ![] bcast_S_S640000 (constantI S_ 32 0#32))) (addi (shapeCast _ (extractStridedSlice S1x640000 ![1, 0] x1 slices_S2x640000_S1x640000_1_0) shapeCasts_S1x640000_S640000) (broadcastInDim S640000 ![] bcast_S_S640000 (constantI S_ 32 100000#32))) (shapeCast _ (extractStridedSlice S1x640000 ![1, 0] x1 slices_S2x640000_S1x640000_1_0) shapeCasts_S1x640000_S640000)))) (Host.gather gather_S100000x128_S640000x1_S640000x128_1_0_n_n_0_1_1128 (rowsByCols (a := 100000) (k := 128) (b := 128) x0 (extractStridedSlice S128x128 ![128, 0] x4 slices_S384x128_S128x128_128_0)) (broadcastInDim S640000x1 ![0] bcast_S640000_S640000x1_0 (select (cmpi .slt (shapeCast _ (extractStridedSlice S1x640000 ![0, 0] x1 slices_S2x640000_S1x640000_0_0) shapeCasts_S1x640000_S640000) (broadcastInDim S640000 ![] bcast_S_S640000 (constantI S_ 32 0#32))) (addi (shapeCast _ (extractStridedSlice S1x640000 ![0, 0] x1 slices_S2x640000_S1x640000_0_0) shapeCasts_S1x640000_S640000) (broadcastInDim S640000 ![] bcast_S_S640000 (constantI S_ 32 100000#32))) (shapeCast _ (extractStridedSlice S1x640000 ![0, 0] x1 slices_S2x640000_S1x640000_0_0) shapeCasts_S1x640000_S640000))))) (broadcastInDim S640000x1 ![0] bcast_S640000_S640000x1_0 x2))) (rowsByCols (a := 100000) (k := 128) (b := 128) x0 x5)

variable (m : (ℓ : Loc nD τ sig) → Buf (Elt Ideal) ℓ) (ρ : Dev nD → PrngReg) (c : Dev nD)

/-! ## After the first stretch -/

theorem at1_wI : W1 m ρ c (Proc.devRef .tc main_v4) = (extractStridedSlice S128x128 ![0, 0] (m ((c : Thread nD τ).loc main_arg4)) slices_S384x128_S128x128_0_0) := by
  dsimp only [W1, hostOps0]; after_results <;> rfl
theorem at1_wJ : W1 m ρ c (Proc.devRef .tc main_v5) = (extractStridedSlice S128x128 ![128, 0] (m ((c : Thread nD τ).loc main_arg4)) slices_S384x128_S128x128_128_0) := by
  dsimp only [W1, hostOps0]; after_results <;> rfl
theorem at1_wE : W1 m ρ c (Proc.devRef .tc main_v6) = (extractStridedSlice S128x128 ![256, 0] (m ((c : Thread nD τ).loc main_arg4)) slices_S384x128_S128x128_256_0) := by
  dsimp only [W1, hostOps0]; after_results <;> rfl
theorem at1_src : W1 m ρ c (Proc.devRef .tc main_v1) = (shapeCast _ (extractStridedSlice S1x640000 ![0, 0] (m ((c : Thread nD τ).loc main_arg1)) slices_S2x640000_S1x640000_0_0) shapeCasts_S1x640000_S640000) := by
  dsimp only [W1, hostOps0]; after_results <;> rfl
theorem at1_dst : W1 m ρ c (Proc.devRef .tc main_v3) = (shapeCast _ (extractStridedSlice S1x640000 ![1, 0] (m ((c : Thread nD τ).loc main_arg1)) slices_S2x640000_S1x640000_1_0) shapeCasts_S1x640000_S640000) := by
  dsimp only [W1, hostOps0]; after_results <;> rfl
theorem at1_x : W1 m ρ c (Proc.devRef .tc main_arg0) = (m ((c : Thread nD τ).loc main_arg0)) := by
  dsimp only [W1, hostOps0]; after_results <;> rfl
theorem at1_ew : W1 m ρ c (Proc.devRef .tc main_arg2) = (m ((c : Thread nD τ).loc main_arg2)) := by
  dsimp only [W1, hostOps0]; after_results <;> rfl
theorem at1_ea : W1 m ρ c (Proc.devRef .tc main_arg3) = (m ((c : Thread nD τ).loc main_arg3)) := by
  dsimp only [W1, hostOps0]; after_results <;> rfl
theorem at1_ws : W1 m ρ c (Proc.devRef .tc main_arg5) = (m ((c : Thread nD τ).loc main_arg5)) := by
  dsimp only [W1, hostOps0]; after_results <;> rfl

/-! ## After the first region: the three node products; every other buffer as before -/

theorem at2_hi : W2 m ρ c (Proc.devRef .tc main_v7_0) = (rowsByCols (a := 100000) (k := 128) (b := 128) (m ((c : Thread nD τ).loc main_arg0)) (extractStridedSlice S128x128 ![0, 0] (m ((c : Thread nD τ).loc main_arg4)) slices_S384x128_S128x128_0_0)) :=
  (W2_arr m ρ c 4).trans ((NodeProducts.product4 (V1 m ρ) c).trans (by
    show rowsByCols (a := 100000) (k := 128) (b := 128) (W1 m ρ c (Proc.devRef .tc main_arg0)) (W1 m ρ c (Proc.devRef .tc main_v4)) = _
    rw [at1_x, at1_wI]))
theorem at2_hj : W2 m ρ c (Proc.devRef .tc main_v7_1) = (rowsByCols (a := 100000) (k := 128) (b := 128) (m ((c : Thread nD τ).loc main_arg0)) (extractStridedSlice S128x128 ![128, 0] (m ((c : Thread nD τ).loc main_arg4)) slices_S384x128_S128x128_128_0)) :=
  (W2_arr m ρ c 5).trans ((NodeProducts.product5 (V1 m ρ) c).trans (by
    show rowsByCols (a := 100000) (k := 128) (b := 128) (W1 m ρ c (Proc.devRef .tc main_arg0)) (W1 m ρ c (Proc.devRef .tc main_v5)) = _
    rw [at1_x, at1_wJ]))
theorem at2_xs : W2 m ρ c (Proc.devRef .tc main_v7_2) = (rowsByCols (a := 100000) (k := 128) (b := 128) (m ((c : Thread nD τ).loc main_arg0)) (m ((c : Thread nD τ).loc main_arg5))) :=
  (W2_arr m ρ c 6).trans ((NodeProducts.product6 (V1 m ρ) c).trans (by
    show rowsByCols (a := 100000) (k := 128) (b := 128) (W1 m ρ c (Proc.devRef .tc main_arg0)) (W1 m ρ c (Proc.devRef .tc main_arg5)) = _
    rw [at1_x, at1_ws]))
theorem at2_src : W2 m ρ c (Proc.devRef .tc main_v1) = (shapeCast _ (extractStridedSlice S1x640000 ![0, 0] (m ((c : Thread nD τ).loc main_arg1)) slices_S2x640000_S1x640000_0_0) shapeCasts_S1x640000_S640000) := (W2_of_ne m ρ c main_v1 (by decide)).trans (at1_src m ρ c)
theorem at2_dst : W2 m ρ c (Proc.devRef .tc main_v3) = (shapeCast _ (extractStridedSlice S1x640000 ![1, 0] (m ((c : Thread nD τ).loc main_arg1)) slices_S2x640000_S1x640000_1_0) shapeCasts_S1x640000_S640000) := (W2_of_ne m ρ c main_v3 (by decide)).trans (at1_dst m ρ c)
theorem at2_wE : W2 m ρ c (Proc.devRef .tc main_v6) = (extractStridedSlice S128x128 ![256, 0] (m ((c : Thread nD τ).loc main_arg4)) slices_S384x128_S128x128_256_0) := (W2_of_ne m ρ c main_v6 (by decide)).trans (at1_wE m ρ c)
theorem at2_ew : W2 m ρ c (Proc.devRef .tc main_arg2) = (m ((c : Thread nD τ).loc main_arg2)) := (W2_of_ne m ρ c main_arg2 (by decide)).trans (at1_ew m ρ c)
theorem at2_ea : W2 m ρ c (Proc.devRef .tc main_arg3) = (m ((c : Thread nD τ).loc main_arg3)) := (W2_of_ne m ρ c main_arg3 (by decide)).trans (at1_ea m ρ c)

/-! ## After the second stretch -/

set_option maxHeartbeats 2000000 in
theorem at3_hs : W3 m ρ c (Proc.devRef .tc main_v22) = (addf (F := Ideal) (s := S640000x128) (φ := .f32) (Host.gather gather_S100000x128_S640000x1_S640000x128_1_0_n_n_0_1_1128 (rowsByCols (a := 100000) (k := 128) (b := 128) (m ((c : Thread nD τ).loc main_arg0)) (extractStridedSlice S128x128 ![0, 0] (m ((c : Thread nD τ).loc main_arg4)) slices_S384x128_S128x128_0_0)) (broadcastInDim S640000x1 ![0] bcast_S640000_S640000x1_0 (select (cmpi .slt (shapeCast _ (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast _ (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast _ (extractStridedSlice S1x640000 ![1, 0] (m ((c : Thread nD τ).loc main_arg1)) slices_S2x640000_S1x640000_1_0) shapeCasts_S1x640000_S640000)))) (Host.gather gather_S100000x128_S640000x1_S640000x128_1_0_n_n_0_1_1128 (rowsByCols (a := 100000) (k := 128) (b := 128) (m ((c : Thread nD τ).loc main_arg0)) (extractStridedSlice S128x128 ![128, 0] (m ((c : Thread nD τ).loc main_arg4)) slices_S384x128_S128x128_128_0)) (broadcastInDim S640000x1 ![0] bcast_S640000_S640000x1_0 (select (cmpi .slt (shapeCast _ (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast _ (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast _ (extractStridedSlice S1x640000 ![0, 0] (m ((c : Thread nD τ).loc main_arg1)) slices_S2x640000_S1x640000_0_0) shapeCasts_S1x640000_S640000))))) := by
  dsimp only [W3, hostOps1]; after_results_simp
  rw [at2_hi, at2_hj, at2_dst, at2_src] <;> rfl
theorem at3_ewcol : W3 m ρ c (Proc.devRef .tc main_v23) = (broadcastInDim S640000x1 ![0] bcast_S640000_S640000x1_0 (m ((c : Thread nD τ).loc main_arg2))) := by
  dsimp only [W3, hostOps1]; after_results
  rw [at2_ew]
theorem at3_ea : W3 m ρ c (Proc.devRef .tc main_arg3) = (m ((c : Thread nD τ).loc main_arg3)) := by
  dsimp only [W3, hostOps1]; after_results
  exact at2_ea m ρ c
theorem at3_wE : W3 m ρ c (Proc.devRef .tc main_v6) = (extractStridedSlice S128x128 ![256, 0] (m ((c : Thread nD τ).loc main_arg4)) slices_S384x128_S128x128_256_0) := by
  dsimp only [W3, hostOps1]; after_results
  exact at2_wE m ρ c
theorem at3_dst : W3 m ρ c (Proc.devRef .tc main_v3) = (shapeCast _ (extractStridedSlice S1x640000 ![1, 0] (m ((c : Thread nD τ).loc main_arg1)) slices_S2x640000_S1x640000_1_0) shapeCasts_S1x640000_S640000) := by
  dsimp only [W3, hostOps1]; after_results
  exact at2_dst m ρ c
theorem at3_xs : W3 m ρ c (Proc.devRef .tc main_v7_2) = (rowsByCols (a := 100000) (k := 128) (b := 128) (m ((c : Thread nD τ).loc main_arg0)) (m ((c : Thread nD τ).loc main_arg5))) := by
  dsimp only [W3, hostOps1]; after_results
  exact at2_xs m ρ c

/-! ## After the second region: the edge messages; every other buffer as before -/

theorem at4_msg : W4 m ρ c (Proc.devRef .tc main_v24) = (edgeMessage (a := 640000) (k := 128) (b := 128) (m ((c : Thread nD τ).loc main_arg3)) (extractStridedSlice S128x128 ![256, 0] (m ((c : Thread nD τ).loc main_arg4)) slices_S384x128_S128x128_256_0) (addf (F := Ideal) (s := S640000x128) (φ := .f32) (Host.gather gather_S100000x128_S640000x1_S640000x128_1_0_n_n_0_1_1128 (rowsByCols (a := 100000) (k := 128) (b := 128) (m ((c : Thread nD τ).loc main_arg0)) (extractStridedSlice S128x128 ![0, 0] (m ((c : Thread nD τ).loc main_arg4)) slices_S384x128_S128x128_0_0)) (broadcastInDim S640000x1 ![0] bcast_S640000_S640000x1_0 (select (cmpi .slt (shapeCast _ (extractStridedSlice S1x640000 ![1, 0] (m ((c : Thread nD τ).loc main_arg1)) slices_S2x640000_S1x640000_1_0) shapeCasts_S1x640000_S640000) (broadcastInDim S640000 ![] bcast_S_S640000 (constantI S_ 32 0#32))) (addi (shapeCast _ (extractStridedSlice S1x640000 ![1, 0] (m ((c : Thread nD τ).loc main_arg1)) slices_S2x640000_S1x640000_1_0) shapeCasts_S1x640000_S640000) (broadcastInDim S640000 ![] bcast_S_S640000 (constantI S_ 32 100000#32))) (shapeCast _ (extractStridedSlice S1x640000 ![1, 0] (m ((c : Thread nD τ).loc main_arg1)) slices_S2x640000_S1x640000_1_0) shapeCasts_S1x640000_S640000)))) (Host.gather gather_S100000x128_S640000x1_S640000x128_1_0_n_n_0_1_1128 (rowsByCols (a := 100000) (k := 128) (b := 128) (m ((c : Thread nD τ).loc main_arg0)) (extractStridedSlice S128x128 ![128, 0] (m ((c : Thread nD τ).loc main_arg4)) slices_S384x128_S128x128_128_0)) (broadcastInDim S640000x1 ![0] bcast_S640000_S640000x1_0 (select (cmpi .slt (shapeCast _ (extractStridedSlice S1x640000 ![0, 0] (m ((c : Thread nD τ).loc main_arg1)) slices_S2x640000_S1x640000_0_0) shapeCasts_S1x640000_S640000) (broadcastInDim S640000 ![] bcast_S_S640000 (constantI S_ 32 0#32))) (addi (shapeCast _ (extractStridedSlice S1x640000 ![0, 0] (m ((c : Thread nD τ).loc main_arg1)) slices_S2x640000_S1x640000_0_0) shapeCasts_S1x640000_S640000) (broadcastInDim S640000 ![] bcast_S_S640000 (constantI S_ 32 100000#32))) (shapeCast _ (extractStridedSlice S1x640000 ![0, 0] (m ((c : Thread nD τ).loc main_arg1)) slices_S2x640000_S1x640000_0_0) shapeCasts_S1x640000_S640000))))) (broadcastInDim S640000x1 ![0] bcast_S640000_S640000x1_0 (m ((c : Thread nD τ).loc main_arg2)))) :=
  (W4_arr m ρ c 4).trans ((EdgeMessages.messages (V3 m ρ) c).trans (by
    show edgeMessage (a := 640000) (k := 128) (b := 128) (W3 m ρ c (Proc.devRef .tc main_arg3)) (W3 m ρ c (Proc.devRef .tc main_v6)) (W3 m ρ c (Proc.devRef .tc main_v22)) (W3 m ρ c (Proc.devRef .tc main_v23)) = _
    rw [at3_ea, at3_wE, at3_hs, at3_ewcol]))
theorem at4_dst : W4 m ρ c (Proc.devRef .tc main_v3) = (shapeCast _ (extractStridedSlice S1x640000 ![1, 0] (m ((c : Thread nD τ).loc main_arg1)) slices_S2x640000_S1x640000_1_0) shapeCasts_S1x640000_S640000) := (W4_of_ne m ρ c main_v3 (by decide)).trans (at3_dst m ρ c)
theorem at4_xs : W4 m ρ c (Proc.devRef .tc main_v7_2) = (rowsByCols (a := 100000) (k := 128) (b := 128) (m ((c : Thread nD τ).loc main_arg0)) (m ((c : Thread nD τ).loc main_arg5))) := (W4_of_ne m ρ c main_v7_2 (by decide)).trans (at3_xs m ρ c)

/-! ## After the last stretch: the result -/

/-- **The result buffer at the end of the fold** is the layer's function of the argument arrays. -/
theorem result : W5 m ρ c (Proc.devRef .tc main_v28) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W5, hostOps2]; after_results
  rw [at4_msg, at4_dst, at4_xs]; rfl

end Cert.KernelIdeal.Result

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«160477_j4363686772851_2_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.RefValue.lean ====
/-
  The reference's result as the same function of its argument arrays.

  The reference computes the node products and the edge attributes' product by the host's `dot_general`, which at an entry
  is the plain sum of products; it scales the messages with the weight first, the weight column broadcast along the
  row. Entry by entry these are the plain products and the edge message of the specification; the index wrapping, the
  gathers, the scatter-add into zeros and the final sum are spelt the same way and are left as they stand.
-/
import proofs.«160477_j4363686772851_2_alg».proof.Proof.Gen.ReferenceIdeal.Run
import proofs.«160477_j4363686772851_2_alg».proof.Proof.LibPlainDot
import proofs.«160477_j4363686772851_2_alg».proof.Proof.MessageSpec
import Idealize.ShloMosaic.Lib.Pipeline.Value
import Idealize.ShloMosaic.Lib.ValueIdx

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.MessageSpec

/-- The layer's result as one function of the six argument arrays: the edge messages scatter-added at the target
    indices into zeros, plus the self product. -/
def value (x0 : FVec Ideal S100000x128 .f32) (x1 : IVec S2x640000 32) (x2 : FVec Ideal S640000 .f32) (x3 : FVec Ideal S640000x128 .f32) (x4 : FVec Ideal S384x128 .f32) (x5 : FVec Ideal S128x128 .f32) : FVec Ideal S100000x128 .f32 :=
  addf (F := Ideal) (s := S100000x128) (φ := .f32) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 (shapeCast _ (extractStridedSlice S1x640000 ![1, 0] x1 slices_S2x640000_S1x640000_1_0) shapeCasts_S1x640000_S640000)) (edgeMessage (a := 640000) (k := 128) (b := 128) x3 (extractStridedSlice S128x128 ![256, 0] x4 slices_S384x128_S128x128_256_0) (addf (F := Ideal) (s := S640000x128) (φ := .f32) (Host.gather gather_S100000x128_S640000x1_S640000x128_1_0_n_n_0_1_1128 (rowsByCols (a := 100000) (k := 128) (b := 128) x0 (extractStridedSlice S128x128 ![0, 0] x4 slices_S384x128_S128x128_0_0)) (broadcastInDim S640000x1 ![0] bcast_S640000_S640000x1_0 (select (cmpi .slt (shapeCast _ (extractStridedSlice S1x640000 ![1, 0] x1 slices_S2x640000_S1x640000_1_0) shapeCasts_S1x640000_S640000) (broadcastInDim S640000 ![] bcast_S_S640000 (constantI S_ 32 0#32))) (addi (shapeCast _ (extractStridedSlice S1x640000 ![1, 0] x1 slices_S2x640000_S1x640000_1_0) shapeCasts_S1x640000_S640000) (broadcastInDim S640000 ![] bcast_S_S640000 (constantI S_ 32 100000#32))) (shapeCast _ (extractStridedSlice S1x640000 ![1, 0] x1 slices_S2x640000_S1x640000_1_0) shapeCasts_S1x640000_S640000)))) (Host.gather gather_S100000x128_S640000x1_S640000x128_1_0_n_n_0_1_1128 (rowsByCols (a := 100000) (k := 128) (b := 128) x0 (extractStridedSlice S128x128 ![128, 0] x4 slices_S384x128_S128x128_128_0)) (broadcastInDim S640000x1 ![0] bcast_S640000_S640000x1_0 (select (cmpi .slt (shapeCast _ (extractStridedSlice S1x640000 ![0, 0] x1 slices_S2x640000_S1x640000_0_0) shapeCasts_S1x640000_S640000) (broadcastInDim S640000 ![] bcast_S_S640000 (constantI S_ 32 0#32))) (addi (shapeCast _ (extractStridedSlice S1x640000 ![0, 0] x1 slices_S2x640000_S1x640000_0_0) shapeCasts_S1x640000_S640000) (broadcastInDim S640000 ![] bcast_S_S640000 (constantI S_ 32 100000#32))) (shapeCast _ (extractStridedSlice S1x640000 ![0, 0] x1 slices_S2x640000_S1x640000_0_0) shapeCasts_S1x640000_S640000))))) (broadcastInDim S640000x1 ![0] bcast_S640000_S640000x1_0 x2))) (rowsByCols (a := 100000) (k := 128) (b := 128) x0 x5)

/-- The host's product of the node array with a `128 × 128` array is the plain product. -/
theorem node_product (A : FVec Ideal S100000x128 .f32) (B : FVec Ideal S128x128 .f32) :
    Host.dotGeneral (F := Ideal) dot_S100000x128_S128x128_S100000x128_1_0_0_1_n_n none A B
      = rowsByCols (a := 100000) (k := 128) (b := 128) A B :=
  funext fun i => by
    obtain ⟨p, q, rfl⟩ : ∃ (p : Fin 100000) (q : Fin 128), i = ix2 p q := ⟨i 0, i 1, eq_ix2 i⟩
    exact PlainDot.dotGeneral_apply_entry (m := 100000) (k := 128) (n := 128) none .single A B p q

/-- The host's product of the edge attributes with a `128 × 128` array is the plain product. -/
theorem edge_product (A : FVec Ideal S640000x128 .f32) (B : FVec Ideal S128x128 .f32) :
    Host.dotGeneral (F := Ideal) dot_S640000x128_S128x128_S640000x128_1_0_0_1_n_n none A B
      = rowsByCols (a := 640000) (k := 128) (b := 128) A B :=
  funext fun i => by
    obtain ⟨p, q, rfl⟩ : ∃ (p : Fin 640000) (q : Fin 128), i = ix2 p q := ⟨i 0, i 1, eq_ix2 i⟩
    exact PlainDot.dotGeneral_apply_entry (m := 640000) (k := 128) (n := 128) none .single A B p q

/-- The weight column broadcast along the row, times the sum, is the edge message at an entry. -/
theorem weighted_entry (A : S640000x128.Idx → EReal) (B : S128x128.Idx → EReal) (H : S640000x128.Idx → EReal)
    (E : S640000x1.Idx → EReal) (p : Fin 640000) (q : Fin 128) :
    (broadcastInDim S640000x128 ![0, 1] bcast_S640000x1_S640000x128_0_1 E) (ix2 p q)
        * (H (ix2 p q) + rowsByCols (a := 640000) (k := 128) (b := 128) A B (ix2 p q))
      = edgeMessage (a := 640000) (k := 128) (b := 128) A B H E (ix2 p q) := by
  rw [broadcastInDim_apply _ bcast_S640000x1_S640000x128_0_1 E (ix2 p q) (ix2 p (0 : Fin 1)) (fun a => match a with
    | ⟨0, _⟩ => by show p.val = if (640000 : Nat) = 1 then 0 else p.val; rw [if_neg (by decide)]
    | ⟨1, _⟩ => by show 0 = if (1 : Nat) = 1 then 0 else q.val; rw [if_pos rfl])]
  exact weight_first A B H E p q

/-- The reference's weight-first scaling of the summed terms is the edge message array. -/
theorem weighted (A : FVec Ideal S640000x128 .f32) (B : FVec Ideal S128x128 .f32) (H : FVec Ideal S640000x128 .f32) (E : FVec Ideal S640000x1 .f32) :
    mulf (broadcastInDim S640000x128 ![0, 1] bcast_S640000x1_S640000x128_0_1 E)
        (addf H (rowsByCols (a := 640000) (k := 128) (b := 128) A B))
      = edgeMessage (a := 640000) (k := 128) (b := 128) A B H E :=
  funext fun i => by
    obtain ⟨p, q, rfl⟩ : ∃ (p : Fin 640000) (q : Fin 128), i = ix2 p q := ⟨i 0, i 1, eq_ix2 i⟩
    exact weighted_entry A B H E p q

/-- **The reference run's result term is the layer's function of the argument arrays.** -/
theorem term_eq (x0 : FVec Ideal S100000x128 .f32) (x1 : IVec S2x640000 32) (x2 : FVec Ideal S640000 .f32) (x3 : FVec Ideal S640000x128 .f32) (x4 : FVec Ideal S384x128 .f32) (x5 : FVec Ideal S128x128 .f32) :
    addf (Host.scatterAdd scatter_S100000x128_S640000x1_S640000x128_1_0_0_1 (broadcastInDim S100000x128 ![] bcast_S_S100000x128 (constant S_ .f32 0x00000000#32)) (broadcastInDim S640000x1 ![0] bcast_S640000_S640000x1_0 (shapeCast _ (extractStridedSlice S1x640000 ![1, 0] x1 slices_S2x640000_S1x640000_1_0) shapeCasts_S1x640000_S640000)) (mulf (broadcastInDim S640000x128 ![0, 1] bcast_S640000x1_S640000x128_0_1 (broadcastInDim S640000x1 ![0] bcast_S640000_S640000x1_0 x2)) (addf (addf (Host.gather gather_S100000x128_S640000x1_S640000x128_1_0_n_n_0_1_1128 (Host.dotGeneral dot_S100000x128_S128x128_S100000x128_1_0_0_1_n_n none x0 (extractStridedSlice S128x128 ![0, 0] x4 slices_S384x128_S128x128_0_0)) (broadcastInDim S640000x1 ![0] bcast_S640000_S640000x1_0 (select (cmpi .slt (shapeCast _ (extractStridedSlice S1x640000 ![1, 0] x1 slices_S2x640000_S1x640000_1_0) shapeCasts_S1x640000_S640000) (broadcastInDim S640000 ![] bcast_S_S640000 (constantI S_ 32 0#32))) (addi (shapeCast _ (extractStridedSlice S1x640000 ![1, 0] x1 slices_S2x640000_S1x640000_1_0) shapeCasts_S1x640000_S640000) (broadcastInDim S640000 ![] bcast_S_S640000 (constantI S_ 32 100000#32))) (shapeCast _ (extractStridedSlice S1x640000 ![1, 0] x1 slices_S2x640000_S1x640000_1_0) shapeCasts_S1x640000_S640000)))) (Host.gather gather_S100000x128_S640000x1_S640000x128_1_0_n_n_0_1_1128 (Host.dotGeneral dot_S100000x128_S128x128_S100000x128_1_0_0_1_n_n none x0 (extractStridedSlice S128x128 ![128, 0] x4 slices_S384x128_S128x128_128_0)) (broadcastInDim S640000x1 ![0] bcast_S640000_S640000x1_0 (select (cmpi .slt (shapeCast _ (extractStridedSlice S1x640000 ![0, 0] x1 slices_S2x640000_S1x640000_0_0) shapeCasts_S1x640000_S640000) (broadcastInDim S640000 ![] bcast_S_S640000 (constantI S_ 32 0#32))) (addi (shapeCast _ (extractStridedSlice S1x640000 ![0, 0] x1 slices_S2x640000_S1x640000_0_0) shapeCasts_S1x640000_S640000) (broadcastInDim S640000 ![] bcast_S_S640000 (constantI S_ 32 100000#32))) (shapeCast _ (extractStridedSlice S1x640000 ![0, 0] x1 slices_S2x640000_S1x640000_0_0) shapeCasts_S1x640000_S640000))))) (Host.dotGeneral dot_S640000x128_S128x128_S640000x128_1_0_0_1_n_n none x3 (extractStridedSlice S128x128 ![256, 0] x4 slices_S384x128_S128x128_256_0))))) (Host.dotGeneral dot_S100000x128_S128x128_S100000x128_1_0_0_1_n_n none x0 x5)
      = value x0 x1 x2 x3 x4 x5 := by
  unfold value
  rw [node_product x0 (extractStridedSlice S128x128 ![0, 0] x4 slices_S384x128_S128x128_0_0), node_product x0 (extractStridedSlice S128x128 ![128, 0] x4 slices_S384x128_S128x128_128_0), node_product x0 x5,
    edge_product x3 (extractStridedSlice S128x128 ![256, 0] x4 slices_S384x128_S128x128_256_0)]
  rw [weighted]

end Cert.ReferenceIdeal.RefValue

end
-- ==== Proof.Agreement.lean ====
/-
  The two programs' closed forms are one function.

  Both programs spell the index wrapping, the gathers, the scatter-add into zeros and the final sum with the same
  operations over the same shapes and dimension numbers; once the node products and the edge messages are the
  specification's on both sides, the two results are the same term of the argument arrays. (Each program states its own
  copy of the shapes and of the gather, scatter and broadcast side conditions; the copies have the same data, and a side
  condition's proof does not matter.)
-/
import proofs.«160477_j4363686772851_2_alg».proof.Proof.KernelValue
import proofs.«160477_j4363686772851_2_alg».proof.Proof.RefValue

set_option maxRecDepth 16384

noncomputable section

namespace Cert.Agreement

open Idealize.ShloMosaic

theorem value_eq (x0 : (⟨Cert.ReferenceIdeal.S100000x128, .f32⟩ : BufTy).Contents (Elt Ideal)) (x1 : (⟨Cert.ReferenceIdeal.S2x640000, .i32⟩ : BufTy).Contents (Elt Ideal)) (x2 : (⟨Cert.ReferenceIdeal.S640000, .f32⟩ : BufTy).Contents (Elt Ideal)) (x3 : (⟨Cert.ReferenceIdeal.S640000x128, .f32⟩ : BufTy).Contents (Elt Ideal)) (x4 : (⟨Cert.ReferenceIdeal.S384x128, .f32⟩ : BufTy).Contents (Elt Ideal)) (x5 : (⟨Cert.ReferenceIdeal.S128x128, .f32⟩ : BufTy).Contents (Elt Ideal)) :
    Cert.ReferenceIdeal.RefValue.value x0 x1 x2 x3 x4 x5 = Cert.KernelIdeal.Result.value x0 x1 x2 x3 x4 x5 := rfl

end Cert.Agreement

end
-- ==== Proof.lean ====
/-
  The message-passing layer: the kernel against its reference, over the extended reals.

  Both programs compute, for node features `x`, edges `(src, dst)` with weights `ew` and attributes `ea`, and the message
  weight array split into three `128 × 128` blocks `W_i`, `W_j`, `W_e`,
      out = scatter-add over edges at dst of  ew[e] · ((x·W_i)[dst[e]] + (x·W_j)[src[e]] + (ea·W_e)[e])   +   x·W_self.
  The kernel computes the three node products in one tiled region, gathers and adds on the host, forms the messages in a
  second tiled region as `(gathered + ea·W_e) · ew`, and scatter-adds on the host; the reference does every step on the
  host and scales with the weight first. At the ideal values the changes of float format are the identity, a tiled
  product into a zero accumulator is the plain product, and the one remaining difference is the order of the two
  factors of a product of extended reals, which commutes at infinite values too: no input needs to be finite, and the
  claim's precondition is not used.

  The three frames are the generated ones (the reference's is its generated run with the result dropped); the ideal
  pass rewrote nothing, so the idealization claim is trivial; the algebraic claim puts both runs' results at one
  function of the argument arrays.
-/
import proofs.«160477_j4363686772851_2_alg».proof.Defs
import proofs.«160477_j4363686772851_2_alg».proof.Proof.Gen.Kernel
import proofs.«160477_j4363686772851_2_alg».proof.Proof.Gen.Kernel.Skeleton
import proofs.«160477_j4363686772851_2_alg».proof.Proof.Gen.Kernel.Launch
import proofs.«160477_j4363686772851_2_alg».proof.Proof.Gen.Kernel.Points
import proofs.«160477_j4363686772851_2_alg».proof.Proof.Gen.Kernel.Frame
import proofs.«160477_j4363686772851_2_alg».proof.Proof.Gen.KernelIdeal
import proofs.«160477_j4363686772851_2_alg».proof.Proof.Gen.KernelIdeal.Skeleton
import proofs.«160477_j4363686772851_2_alg».proof.Proof.Gen.KernelIdeal.Launch
import proofs.«160477_j4363686772851_2_alg».proof.Proof.Gen.KernelIdeal.Points
import proofs.«160477_j4363686772851_2_alg».proof.Proof.Gen.KernelIdeal.Frame
import proofs.«160477_j4363686772851_2_alg».proof.Proof.Gen.ReferenceIdeal
import proofs.«160477_j4363686772851_2_alg».proof.Proof.Gen.ReferenceIdeal.Run
import proofs.«160477_j4363686772851_2_alg».proof.Proof.Gen.Pre_finite_inputs
import proofs.«160477_j4363686772851_2_alg».proof.Proof.ResultRun
import proofs.«160477_j4363686772851_2_alg».proof.Proof.KernelValue
import proofs.«160477_j4363686772851_2_alg».proof.Proof.RefValue
import proofs.«160477_j4363686772851_2_alg».proof.Proof.Agreement
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the layer's function of the (agreeing) argument arrays. -/
theorem algebraic : Cert.algebraic_KernelIdeal_ReferenceIdeal := by
  intro m ρ m' ρ' _ hagree
  refine ⟨fun c => Cert.KernelIdeal.Result.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5⟩ := hagree c
    refine (Cert.ReferenceIdeal.RefValue.term_eq _ _ _ _ _ _).trans ?_
    rw [a0, a1, a2, a3, a4, a5]
    exact Cert.Agreement.value_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
